-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x128 : Shape := ⟨3, ![64, 32, 128]⟩
abbrev S128x128x128 : Shape := ⟨3, ![128, 128, 128]⟩
abbrev S_ : Shape := ⟨0, ![]⟩

class Facts : Prop where
  bcast_S_S64x32x128 : S_.BroadcastsInDim S64x32x128 (![] : Fin 0 → Fin S64x32x128.rank)
  reducesTo_S64x32x128_S_d0_1_2 : S64x32x128.ReducesTo [0, 1, 2] S_
  h_S_ : 0 < S_.numel
  bcast_S_S128x128x128 : S_.BroadcastsInDim S128x128x128 (![] : Fin 0 → Fin S128x128x128.rank)
  reducesTo_S128x128x128_S_d0_1_2 : S128x128x128.ReducesTo [0, 1, 2] S_

variable [Facts]

def fn {F : FTy → Type} [FloatOps F] (main_arg0 : FVec F S64x32x128 .f32) (main_arg1 : FVec F S128x128x128 .f32) : IVec S_ 1 :=
  let main_v0 : FVec F S64x32x128 .f32 := Host.absf main_arg0
  let main_cst : FVec F S_ .f32 := constant S_ .f32 0x7F800000#32
  let main_v1 : FVec F S64x32x128 .f32 := broadcastInDim S64x32x128 ![] bcast_S_S64x32x128 main_cst
  let main_v2 : IVec S64x32x128 1 := cmpf .olt main_v0 main_v1
  let main_c : IVec S_ 1 := constantI S_ 1 1#1
  let main_v3 : IVec S_ 1 := (fun x v => Host.reduce IntOp.andi x v reducesTo_S64x32x128_S_d0_1_2 h_S_) main_v2 main_c
  let main_v4 : FVec F S128x128x128 .f32 := Host.absf main_arg1
  let main_cst_0 : FVec F S_ .f32 := constant S_ .f32 0x7F800000#32
  let main_v5 : FVec F S128x128x128 .f32 := broadcastInDim S128x128x128 ![] bcast_S_S128x128x128 main_cst_0
  let main_v6 : IVec S128x128x128 1 := cmpf .olt main_v4 main_v5
  let main_c_1 : IVec S_ 1 := constantI S_ 1 1#1
  let main_v7 : IVec S_ 1 := (fun x v => Host.reduce IntOp.andi x v reducesTo_S128x128x128_S_d0_1_2 h_S_) main_v6 main_c_1
  let main_v8 : IVec S_ 1 := andi main_v3 main_v7
  main_v8
-- ==== Kernel.lean ====
abbrev S64x32x128 : Shape := ⟨3, ![64, 32, 128]⟩
abbrev S128x128x128 : Shape := ⟨3, ![128, 128, 128]⟩
abbrev S64x128 : Shape := ⟨2, ![64, 128]⟩
abbrev S32x32x128 : Shape := ⟨3, ![32, 32, 128]⟩
abbrev S32x128 : Shape := ⟨2, ![32, 128]⟩
abbrev S1024x128 : Shape := ⟨2, ![1024, 128]⟩
abbrev S32x128x128 : Shape := ⟨3, ![32, 128, 128]⟩
abbrev S4096x128 : Shape := ⟨2, ![4096, 128]⟩
abbrev S1024x4096 : Shape := ⟨2, ![1024, 4096]⟩
abbrev S1024x32x128 : Shape := ⟨3, ![1024, 32, 128]⟩
abbrev S_ : Shape := ⟨0, ![]⟩
abbrev S64 : Shape := ⟨1, ![64]⟩
abbrev S64x1 : Shape := ⟨2, ![64, 1]⟩

abbrev nBuf : Space → Nat
  | .hbm => 28
  | .vmem => 5
  | .smem => 0
  | _ => 0

abbrev bufTy : (tb : Table) → Fin (tcTables nBuf tb) → BufTy
  | .hbm, ⟨0, _⟩ => ⟨S64x32x128, .f32⟩
  | .hbm, ⟨1, _⟩ => ⟨S128x128x128, .f32⟩
  | .hbm, ⟨2, _⟩ => ⟨S64x32x128, .bf16⟩
  | .hbm, ⟨3, _⟩ => ⟨S128x128x128, .f32⟩
  | .hbm, ⟨4, _⟩ => ⟨S128x128x128, .bf16⟩
  | .hbm, ⟨5, _⟩ => ⟨S64x128, .f32⟩
  | .hbm, ⟨6, _⟩ => ⟨S_, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64x1, .f32⟩
  | .hbm, ⟨12, _⟩ => ⟨S64x128, .f32⟩
  | .hbm, ⟨13, _⟩ => ⟨S64x128, .f32⟩
  | .hbm, ⟨14, _⟩ => ⟨S64x128, .f32⟩
  | .hbm, ⟨15, _⟩ => ⟨S_, .f32⟩
  | .hbm, ⟨16, _⟩ => ⟨S64, .f32⟩
  | .hbm, ⟨17, _⟩ => ⟨S64x1, .f32⟩
  | .hbm, ⟨18, _⟩ => ⟨S64x1, .f32⟩
  | .hbm, ⟨19, _⟩ => ⟨S64x128, .f32⟩
  | .hbm, ⟨20, _⟩ => ⟨S64x128, .f32⟩
  | .hbm, ⟨21, _⟩ => ⟨S64x1, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S32x32x128, .bf16⟩
  | .local _ .vmem, ⟨1, _⟩ => ⟨S32x32x128, .bf16⟩
  | .local _ .vmem, ⟨2, _⟩ => ⟨S128x128x128, .bf16⟩
  | .local _ .vmem, ⟨3, _⟩ => ⟨S32x128, .f32⟩
  | .local _ .vmem, ⟨4, _⟩ => ⟨S32x128, .f32⟩
  | _, _ => ⟨S64x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  transposes_S128x128x128_S128x128x128_1_0_2 : S128x128x128.Transposes [1, 0, 2] S128x128x128
  inb_S32x32x128_S32x32x128_0_0_0 : ∀ a, (![0, 0, 0] : Fin 3 → Nat) a + S32x32x128.size a ≤ S32x32x128.size a
  h_S32x32x128 : 0 < S32x32x128.numel
  shapeCasts_S32x32x128_S32x32x128 : S32x32x128.ShapeCasts S32x32x128
  shapeCasts_S32x32x128_S1024x128 : S32x32x128.ShapeCasts S1024x128
  inb_S128x128x128_S32x128x128_0_0_0 : ∀ a, (![0, 0, 0] : Fin 3 → Nat) a + S32x128x128.size a ≤ S128x128x128.size a
  h_S32x128x128 : 0 < S32x128x128.numel
  shapeCasts_S32x128x128_S32x128x128 : S32x128x128.ShapeCasts S32x128x128
  shapeCasts_S32x128x128_S4096x128 : S32x128x128.ShapeCasts S4096x128
  shapeCasts_S1024x4096_S1024x32x128 : S1024x4096.ShapeCasts S1024x32x128
  reduces_S1024x32x128_S1024x128 : S1024x32x128.Reduces [1] S1024x128
  inb_S128x128x128_S32x128x128_32_0_0 : ∀ a, (![32, 0, 0] : Fin 3 → Nat) a + S32x128x128.size a ≤ S128x128x128.size a
  inb_S128x128x128_S32x128x128_64_0_0 : ∀ a, (![64, 0, 0] : Fin 3 → Nat) a + S32x128x128.size a ≤ S128x128x128.size a
  inb_S128x128x128_S32x128x128_96_0_0 : ∀ a, (![96, 0, 0] : Fin 3 → Nat) a + S32x128x128.size a ≤ S128x128x128.size a
  shapeCasts_S1024x128_S32x32x128 : S1024x128.ShapeCasts S32x32x128
  reduces_S32x32x128_S32x128 : S32x32x128.Reduces [1] S32x128
  inb_S32x128_S32x128_0_0 : ∀ a, (![0, 0] : Fin 2 → Nat) a + S32x128.size a ≤ S32x128.size a
  h_S32x128 : 0 < S32x128.numel
  reducesTo_S64x128_S64_d1 : S64x128.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  slices_S64x128_S64x1_0_0 : S64x128.Slices ![0, 0] S64x1
  shapeCasts_S64x1_S64 : S64x1.ShapeCasts S64
  reducesTo_S64_S_d0 : S64.ReducesTo [0] S_
  dot_S1024x128_S4096x128_S1024x4096_1_1_0_0_n_n_wf : DotDims.WF S1024x128 S4096x128 S1024x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32x128.size a ≤ S64x32x128.size a
  hwx0_0 : ∀ i : grid0.Coords, EltTy.bits .bf16 = 32 ∨ (Rect.block (s := S64x32x128) S32x32x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128x128.size a ≤ S128x128x128.size a
  hwx0_1 : ∀ i : grid0.Coords, EltTy.bits .bf16 = 32 ∨ (Rect.block (s := S128x128x128) S128x128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S64x128.size a
  hwx0_2 : ∀ i : grid0.Coords, EltTy.bits .f32 = 32 ∨ (Rect.block (s := S64x128) S32x128.size (cc0_transform_2 i) (hinb0_2 i)).WholeWords (EltTy.packing .f32)

variable [Facts₀]

def dot_S1024x128_S4096x128_S1024x4096_1_1_0_0_n_n : DotDims S1024x128 S4096x128 S1024x4096 where
  lhsContracting := [1]
  rhsContracting := [1]
  lhsNonContracting := [0]
  rhsNonContracting := [0]
  lhsBatch := []
  rhsBatch := []
  wf := dot_S1024x128_S4096x128_S1024x4096_1_1_0_0_n_n_wf

abbrev win0_0 : Pipeline.Window sig grid0 :=
  Pipeline.Window.ofSpec (Memref.whole main_v0) S32x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S32x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x32x128 : Shape := ⟨3, ![64, 32, 128]⟩
abbrev S128x128x128 : Shape := ⟨3, ![128, 128, 128]⟩
abbrev S128x128x64x32 : Shape := ⟨4, ![128, 128, 64, 32]⟩
abbrev S64x128x32x128 : Shape := ⟨4, ![64, 128, 32, 128]⟩
abbrev S_ : Shape := ⟨0, ![]⟩
abbrev S64x128x32 : Shape := ⟨3, ![64, 128, 32]⟩
abbrev S64x128 : Shape := ⟨2, ![64, 128]⟩
abbrev S64 : Shape := ⟨1, ![64]⟩
abbrev S64x1 : Shape := ⟨2, ![64, 1]⟩

abbrev nBuf : Space → Nat
  | .hbm => 36
  | .vmem => 0
  | .smem => 0
  | _ => 0

abbrev bufTy : (tb : Table) → Fin (tcTables nBuf tb) → BufTy
  | .hbm, ⟨0, _⟩ => ⟨S64x32x128, .f32⟩
  | .hbm, ⟨1, _⟩ => ⟨S128x128x128, .f32⟩
  | .hbm, ⟨2, _⟩ => ⟨S128x128x64x32, .f32⟩
  | .hbm, ⟨3, _⟩ => ⟨S64x128x32x128, .f32⟩
  | .hbm, ⟨4, _⟩ => ⟨S_, .f32⟩
  | .hbm, ⟨5, _⟩ => ⟨S64x128x32, .f32⟩
  | .hbm, ⟨6, _⟩ => ⟨S_, .f32⟩
  | .hbm, ⟨7, _⟩ => ⟨S64x128, .f32⟩
  | .hbm, ⟨8, _⟩ => ⟨S_, .f32⟩
  | .hbm, ⟨9, _⟩ => ⟨S64x128, .f32⟩
  | .hbm, ⟨10, _⟩ => ⟨S64x128, .f32⟩
  | .hbm, ⟨11, _⟩ => ⟨S_, .f32⟩
  | .hbm, ⟨12, _⟩ => ⟨S64x128, .f32⟩
  | .hbm, ⟨13, _⟩ => ⟨S64x128, .f32⟩
  | .hbm, ⟨14, _⟩ => ⟨S_, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64x1, .f32⟩
  | .hbm, ⟨20, _⟩ => ⟨S64x128, .f32⟩
  | .hbm, ⟨21, _⟩ => ⟨S64x128, .f32⟩
  | .hbm, ⟨22, _⟩ => ⟨S64x128, .f32⟩
  | .hbm, ⟨23, _⟩ => ⟨S_, .f32⟩
  | .hbm, ⟨24, _⟩ => ⟨S64, .f32⟩
  | .hbm, ⟨25, _⟩ => ⟨S64x1, .f32⟩
  | .hbm, ⟨26, _⟩ => ⟨S64x1, .f32⟩
  | .hbm, ⟨27, _⟩ => ⟨S64x128, .f32⟩
  | .hbm, ⟨28, _⟩ => ⟨S64x128, .f32⟩
  | .hbm, ⟨29, _⟩ => ⟨S64x1, .f32⟩
  | .hbm, ⟨30, _⟩ => ⟨S64, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S64x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_call0_cst_0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst_1 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_cst_4 : Ref sig .tc := ⟨.hbm, 33, rfl⟩
abbrev main_v12 : Ref sig .tc := ⟨.hbm, 34, rfl⟩
abbrev main_v13 : Ref sig .tc := ⟨.hbm, 35, rfl⟩

abbrev nD : Nat := 1
abbrev τ : Topo := Topo.v7x

variable {F : FTy → Type} [FloatOps F]

class Facts₀ : Prop where
  transposes_S128x128x64x32_S64x128x32x128_2_0_3_1 : S128x128x64x32.Transposes [2, 0, 3, 1] S64x128x32x128
  reducesTo_S64x128x32x128_S64x128x32_d3 : S64x128x32x128.ReducesTo [3] S64x128x32
  h_S_ : 0 < S_.numel
  reducesTo_S64x128x32_S64x128_d2 : S64x128x32.ReducesTo [2] S64x128
  bcast_S_S64x128 : S_.BroadcastsInDim S64x128 (![] : Fin 0 → Fin S64x128.rank)
  reducesTo_S64x128_S64_d1 : S64x128.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  slices_S64x128_S64x1_0_0 : S64x128.Slices ![0, 0] S64x1
  shapeCasts_S64x1_S64 : S64x1.ShapeCasts S64
  reducesTo_S64_S_d0 : S64.ReducesTo [0] S_
  dot_S128x128x128_S64x32x128_S128x128x64x32_2_2_01_01_n_n_wf : DotDims.WF S128x128x128 S64x32x128 S128x128x64x32 [2] [2] [0, 1] [0, 1] [] []

variable [Facts₀]

def dot_S128x128x128_S64x32x128_S128x128x64x32_2_2_01_01_n_n : DotDims S128x128x128 S64x32x128 S128x128x64x32 where
  lhsContracting := [2]
  rhsContracting := [2]
  lhsNonContracting := [0, 1]
  rhsNonContracting := [0, 1]
  lhsBatch := []
  rhsBatch := []
  wf := dot_S128x128x128_S64x32x128_S128x128x64x32_2_2_01_01_n_n_wf

class Facts : Prop extends Facts₀ where

variable [Facts]
-- ==== Proof.LibMergedAxes.lean ====
/-
  Axes merged or split by a shape cast, the maximum along the middle axis of a rank-three array, and a maximum taken
  block by block, at the extended reals.

  A cast that merges the two leading axes of an [a, b, c] array into one of extent a·b, or splits a leading or a trailing
  axis back into two, keeps every entry's row-major position: entry (p, q, r) sits in row p·b + q of the merged matrix,
  and entry (p, q·c + r) of a matrix [a, b·c] is entry (p, q, r) of the split array. The float maximum-reduction of an
  [a, b, c] array along its middle axis from the word for minus infinity is, at (p, r), the fold of max from bottom over
  the entries (p, j, r). And a maximum over T = 4·J entries is the maximum of the maxima of its four consecutive blocks of
  J entries (max is associative and commutative with bottom as unit, so the grouping plays no part).
-/
import Idealize.ShloMosaic.PureOps.Ideal.Laws
import Idealize.ShloMosaic.Lib.Pipeline.Value
import Idealize.ShloMosaic.Lib.ValueIdx

noncomputable section

open scoped BigOperators

namespace Idealize.ShloMosaic.MergedAxes

open Idealize.ShloMosaic Idealize.ShloMosaic.ValueIdx

variable {α : Type}

/-- `[a, b, c]` cast to `[n, c]` (n = a·b) reads, in row `p·b + q` at column `r`, the operand at `(p, q, r)`. -/
theorem shapeCast_mergeHead_apply {a b c n : ℕ} (x : (⟨3, ![a, b, c]⟩ : Shape).Idx → α)
    (h : (⟨3, ![a, b, c]⟩ : Shape).ShapeCasts ⟨2, ![n, c]⟩) (p : Fin a) (q : Fin b) (r : Fin c) (pq : Fin n)
    (hpq : pq.val = p.val * b + q.val) :
    shapeCast ⟨2, ![n, c]⟩ x h (ix2 pq r) = x (ix3 p q r) :=
  shapeCast_apply x h (ix2 pq r) (ix3 p q r) (by
    rw [Shape.rowMajor_val_three, Shape.rowMajor_val_two]
    show (p.val * b + q.val) * c + r.val = pq.val * c + r.val
    rw [hpq])

/-- `[n, c]` (n = a·b) cast to `[a, b, c]` reads, at `(p, q, r)`, the operand in row `p·b + q` at column `r`. -/
theorem shapeCast_splitHead_apply {a b c n : ℕ} (x : (⟨2, ![n, c]⟩ : Shape).Idx → α)
    (h : (⟨2, ![n, c]⟩ : Shape).ShapeCasts ⟨3, ![a, b, c]⟩) (p : Fin a) (q : Fin b) (r : Fin c) (pq : Fin n)
    (hpq : pq.val = p.val * b + q.val) :
    shapeCast ⟨3, ![a, b, c]⟩ x h (ix3 p q r) = x (ix2 pq r) :=
  shapeCast_apply x h (ix3 p q r) (ix2 pq r) (by
    rw [Shape.rowMajor_val_three, Shape.rowMajor_val_two]
    show pq.val * c + r.val = (p.val * b + q.val) * c + r.val
    rw [hpq])

/-- `[a, n]` (n = b·c) cast to `[a, b, c]` reads, at `(p, q, r)`, the operand in row `p` at column `q·c + r`. -/
theorem shapeCast_splitTail_apply {a b c n : ℕ} (x : (⟨2, ![a, n]⟩ : Shape).Idx → α)
    (h : (⟨2, ![a, n]⟩ : Shape).ShapeCasts ⟨3, ![a, b, c]⟩) (hn : n = b * c) (p : Fin a) (q : Fin b) (r : Fin c) (qr : Fin n)
    (hqr : qr.val = q.val * c + r.val) :
    shapeCast ⟨3, ![a, b, c]⟩ x h (ix3 p q r) = x (ix2 p qr) :=
  shapeCast_apply x h (ix3 p q r) (ix2 p qr) (by
    rw [Shape.rowMajor_val_three, Shape.rowMajor_val_two]
    show p.val * n + qr.val = (p.val * b + q.val) * c + r.val
    rw [hqr, hn, Nat.add_mul, Nat.mul_assoc, Nat.add_assoc])

/-- The f32 word `0xFF800000` denotes minus infinity. -/
theorem ofBits_negInf : Ideal.ofBits .f32 0xFF800000#32 = (⊥ : EReal) := by simp [Ideal.ofBits, Ideal.ieee]

/-- The maximum of an `[a, b, c]` array along its MIDDLE axis, taken from the word for minus infinity, read at `(p, r)`:
    the fold of `max` from bottom over the entries `(p, j, r)`. -/
theorem maxMiddle_apply {a b c : ℕ} (src : FVec Ideal ⟨3, ![a, b, c]⟩ .f32)
    (h : Shape.Reduces ⟨3, ![a, b, c]⟩ [1] ⟨2, ![a, c]⟩) (hφ : FKind.Formats .f32)
    (hacc : (0xFF800000#32 : BitVec 32) = 0xFF800000#32) (p : Fin a) (r : Fin c) :
    multiReduction .maximumf [1] ⟨2, ![a, c]⟩ src 0xFF800000#32 h hφ hacc (ix2 p r)
      = (Finset.univ : Finset (Fin b)).fold max ⊥ (fun j => src (ix3 p j r)) := by
  refine (Ideal.multiReduction_maximumf_single src 0xFF800000#32 h hφ hacc (ix2 p r)).trans ?_
  show (Finset.univ : Finset (Fin b)).fold max (Ideal.ofBits .f32 0xFF800000#32) (src ∘ h.lift (ix2 p r)) = _
  rw [ofBits_negInf]
  refine congrArg (fun f => Finset.fold max (⊥ : EReal) f (Finset.univ : Finset (Fin b))) (funext fun j => congrArg src ?_)
  funext d
  match d with
  | ⟨0, _⟩ => rfl
  | ⟨1, _⟩ => rfl
  | ⟨2, _⟩ => rfl

/-- The maximum of `T = J·4` entries is the maximum of the maxima of its four consecutive blocks of `J` entries, taken
    left to right. -/
theorem max_four_blocks {β : Type} [LinearOrder β] [OrderBot β] {J T : ℕ} (hT : T = J * 4) (f : Fin T → β)
    (g : Fin 4 → Fin J → β) (hg : ∀ (k : Fin 4) (j : Fin J) (d : Fin T), d.val = J * k.val + j.val → g k j = f d) :
    max (max (max ((Finset.univ : Finset (Fin J)).fold max ⊥ (g 0)) ((Finset.univ : Finset (Fin J)).fold max ⊥ (g 1)))
        ((Finset.univ : Finset (Fin J)).fold max ⊥ (g 2))) ((Finset.univ : Finset (Fin J)).fold max ⊥ (g 3))
      = (Finset.univ : Finset (Fin T)).fold max ⊥ f := by
  refine eq_of_forall_ge_iff fun z => ?_
  simp only [max_le_iff, Finset.fold_max_le, bot_le, true_and, Finset.mem_univ, forall_true_left]
  constructor
  · rintro ⟨⟨⟨h0, h1⟩, h2⟩, h3⟩ d
    have hd := d.isLt
    have hJ : 0 < J := by
      rcases Nat.eq_zero_or_pos J with h | h
      · subst h; omega
      · exact h
    have hk : d.val / J < 4 := by rw [Nat.div_lt_iff_lt_mul hJ]; omega
    have hj : d.val % J < J := Nat.mod_lt _ hJ
    obtain ⟨k, hk4⟩ : ∃ k : Fin 4, k.val = d.val / J := ⟨⟨_, hk⟩, rfl⟩
    have e := hg k ⟨d.val % J, hj⟩ d (by rw [hk4]; exact (Nat.div_add_mod _ _).symm)
    rw [← e]
    match k with
    | ⟨0, _⟩ => exact h0 _
    | ⟨1, _⟩ => exact h1 _
    | ⟨2, _⟩ => exact h2 _
    | ⟨3, _⟩ => exact h3 _
  · intro h
    have hb : ∀ (k : Fin 4) (j : Fin J), J * k.val + j.val < T := fun k j => by
      have := j.isLt; have := k.isLt
      calc J * k.val + j.val < J * k.val + J := by omega
        _ = J * (k.val + 1) := by rw [Nat.mul_succ]
        _ ≤ J * 4 := Nat.mul_le_mul_left _ (by omega)
        _ = T := hT.symm
    refine ⟨⟨⟨fun j => ?_, fun j => ?_⟩, fun j => ?_⟩, fun j => ?_⟩
    · rw [hg 0 j ⟨_, hb 0 j⟩ rfl]; exact h _
    · rw [hg 1 j ⟨_, hb 1 j⟩ rfl]; exact h _
    · rw [hg 2 j ⟨_, hb 2 j⟩ rfl]; exact h _
    · rw [hg 3 j ⟨_, hb 3 j⟩ rfl]; exact h _

/-- The same with the four blocks given as four functions: block k's entry j is entry J·k + j. -/
theorem max_four_blocks' {β : Type} [LinearOrder β] [OrderBot β] {J T : ℕ} (hT : T = J * 4) (f : Fin T → β)
    (g0 g1 g2 g3 : Fin J → β)
    (h0 : ∀ (j : Fin J) (d : Fin T), d.val = J * 0 + j.val → g0 j = f d)
    (h1 : ∀ (j : Fin J) (d : Fin T), d.val = J * 1 + j.val → g1 j = f d)
    (h2 : ∀ (j : Fin J) (d : Fin T), d.val = J * 2 + j.val → g2 j = f d)
    (h3 : ∀ (j : Fin J) (d : Fin T), d.val = J * 3 + j.val → g3 j = f d) :
    max (max (max ((Finset.univ : Finset (Fin J)).fold max ⊥ g0) ((Finset.univ : Finset (Fin J)).fold max ⊥ g1))
        ((Finset.univ : Finset (Fin J)).fold max ⊥ g2)) ((Finset.univ : Finset (Fin J)).fold max ⊥ g3)
      = (Finset.univ : Finset (Fin T)).fold max ⊥ f :=
  max_four_blocks hT f (fun k => match k with | ⟨0, _⟩ => g0 | ⟨1, _⟩ => g1 | ⟨2, _⟩ => g2 | ⟨3, _⟩ => g3)
    (fun k j d hd => match k with
      | ⟨0, _⟩ => h0 j d hd
      | ⟨1, _⟩ => h1 j d hd
      | ⟨2, _⟩ => h2 j d hd
      | ⟨3, _⟩ => h3 j d hd)

end Idealize.ShloMosaic.MergedAxes

end
-- ==== Proof.LibTransposedDot.lean ====
/-
  A matrix product whose right operand is contracted on its LAST axis, read at an index, at the ideal instance.

  For the dimension numbers "rows × contraction times columns × contraction" (`DotDims.transposedRhs M K N`: the
  product x · yᵀ written without a transpose) both the vector unit's matmul into a zero accumulator and the host's
  dot_general are, at output index (a, b), the sum over k of l (a, k) · r (b, k) on the extended reals. The sum over
  the one-axis contraction index is re-indexed by its one coordinate.
-/
import Idealize.ShloMosaic.PureOps.Ideal.Laws
import Idealize.ShloMosaic.Lib.ValueIdx

noncomputable section

open scoped BigOperators

namespace Idealize.ShloMosaic.TransposedDot

open Idealize.ShloMosaic Idealize.ShloMosaic.ValueIdx

theorem lhs0 (M K N : Nat) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl
theorem lhs1 (M K N : Nat) (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q
theorem rhs0 (M K N : Nat) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl
theorem rhs1 (M K N : Nat) (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The contraction sum of such a product at (a, b), over the coordinate `k : Fin K`. -/
theorem sum_transposedRhs (M K N : Nat) {φ₁ φ₂ : FTy} (l : FVec Ideal ⟨2, ![M, K]⟩ φ₁) (r : FVec Ideal ⟨2, ![N, K]⟩ φ₂)
    (a : Fin M) (b : Fin N) :
    ∑ k : (DotDims.transposedRhs M K N).contr.Idx,
        l ((DotDims.transposedRhs M K N).lhsIdx (ix2 a b) k) * r ((DotDims.transposedRhs M K N).rhsIdx (ix2 a b) k)
      = ∑ k : Fin K, l (ix2 a k) * r (ix2 b k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 a b) ((contrEquiv1 (DotDims.transposedRhs M K N) K rfl rfl).symm k) = ix2 a k :=
    funext fun d => Fin.ext (by
      match d with
      | ⟨0, _⟩ => exact lhs0 M K N _ _
      | ⟨1, _⟩ => exact (lhs1 M K N _ _).trans hk)
  have er : (DotDims.transposedRhs M K N).rhsIdx (ix2 a b) ((contrEquiv1 (DotDims.transposedRhs M K N) K rfl rfl).symm k) = ix2 b k :=
    funext fun d => Fin.ext (by
      match d with
      | ⟨0, _⟩ => exact rhs0 M K N _ _
      | ⟨1, _⟩ => exact (rhs1 M K N _ _).trans hk)
  rw [el, er]

/-- The vector unit's matmul into the zero accumulator, at (a, b). -/
theorem matmul_transposedRhs {M K N : Nat} {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (a : Fin M) (b : Fin N) :
    matmul D prec l r (constant ⟨2, ![M, N]⟩ .f32 0x00000000#32) (ix2 a b) = ∑ k : Fin K, l (ix2 a k) * r (ix2 b k) := by
  subst hD
  exact (Ideal.matmul_constant_zero_apply _ prec l r (ix2 a b)).trans (sum_transposedRhs M K N l r a b)

/-- The host's dot_general, at (a, b). -/
theorem dotGeneral_transposedRhs {M K N : Nat} {φ₁ φ₂ : FTy} (D : DotDims ⟨2, ![M, K]⟩ ⟨2, ![N, K]⟩ ⟨2, ![M, N]⟩)
    (hD : D = DotDims.transposedRhs M K N) (prec : Option ContractPrecision)
    (l : FVec Ideal ⟨2, ![M, K]⟩ φ₁) (r : FVec Ideal ⟨2, ![N, K]⟩ φ₂) (a : Fin M) (b : Fin N) :
    Host.dotGeneral (F := Ideal) D prec l r (ix2 a b) = ∑ k : Fin K, l (ix2 a k) * r (ix2 b k) := by
  subst hD
  simp only [Host.dotGeneral]
  exact (Ideal.dotGeneral_apply _ prec _ l r (ix2 a b)).trans (sum_transposedRhs M K N l r a b)

end Idealize.ShloMosaic.TransposedDot

end
-- ==== Proof.LibRank3Read.lean ====
/-
  Layout operations and single-axis reductions of rank-3 arrays, read at an index written by coordinates.

  A row-wise kernel that keeps a block `[a, b, c]` meets: a per-row vector kept with a middle unit axis (`[a, c]` cast to
  `[a, 1, c]`) and spread over the middle axis (`[a, 1, c]` to `[a, b, c]`); a matrix kept with a trailing unit axis
  (`[a, b]` cast to `[a, b, 1]`) and spread over the last axis (`[a, b, 1]` to `[a, b, c]`); the block's sums along its
  last and along its middle axis; the block itself as a cast of `[a, 1, b, c]`; and a row's maximum taken from the
  word for minus infinity. In every cast the row-major position is unchanged; a broadcast reads the unit coordinate `0`; a sum
  or maximum over one axis ranges over that axis's coordinate with the others fixed.
-/
import Idealize.ShloMosaic.PureOps.Ideal.Laws
import Idealize.ShloMosaic.Lib.Pipeline.Value
import Idealize.ShloMosaic.Lib.ValueIdx

noncomputable section

open scoped BigOperators

namespace Idealize.ShloMosaic.Rank3Read

open Idealize.ShloMosaic Idealize.ShloMosaic.ValueIdx

variable {α : Type}

/-- `[a, c]` cast to `[a, 1, c]` reads, at `(p, u, r)`, the operand at `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h (ix3 p u r) (ix2 p r) (by
    have hu : u.val = 0 := by omega
    rw [Shape.rowMajor_val_three, Shape.rowMajor_val_two]
    show p.val * c + r.val = (p.val * 1 + u.val) * c + r.val
    rw [hu, Nat.mul_one, Nat.add_zero])

/-- `[a, 1, c]` spread to `[a, b, c]` reads, at `(p, q, r)`, the operand at `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ =>
    show (0 : ℕ) = if (1 : ℕ) = 1 then 0 else q.val
    rw [if_pos rfl]
  | ⟨2, _⟩ =>
    show r.val = if c = 1 then 0 else r.val
    split
    · have := r.isLt; omega
    · rfl

/-- `[a, b]` cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h (ix3 p q u) (ix2 p q) (by
    have hu : u.val = 0 := by omega
    rw [Shape.rowMajor_val_three, Shape.rowMajor_val_two]
    show p.val * b + q.val = (p.val * b + q.val) * 1 + u.val
    rw [hu, Nat.mul_one, Nat.add_zero])

/-- `[a, b, 1]` spread to `[a, b, c]` reads, at `(p, q, r)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show (0 : ℕ) = if (1 : ℕ) = 1 then 0 else r.val
    rw [if_pos rfl]

/-- `[a, 1, b, c]` cast to `[a, b, c]` reads, at `(p, q, r)`, the operand at `(p, 0, q, r)`. -/
theorem shapeCast_a1bc_abc_apply {a b c : ℕ} (x : (⟨4, ![a, 1, b, c]⟩ : Shape).Idx → α)
    (h : (⟨4, ![a, 1, b, c]⟩ : Shape).ShapeCasts ⟨3, ![a, b, c]⟩) (p : Fin a) (q : Fin b) (r : Fin c) :
    shapeCast ⟨3, ![a, b, c]⟩ x h (ix3 p q r) = x (ix4 p (0 : Fin 1) q r) :=
  shapeCast_apply x h (ix3 p q r) (ix4 p (0 : Fin 1) q r) (by
    rw [Shape.rowMajor_val_four, Shape.rowMajor_val_three]
    show ((p.val * 1 + 0) * b + q.val) * c + r.val = (p.val * b + q.val) * c + r.val
    rw [Nat.mul_one, Nat.add_zero])

/-- The sum of an `[a, b, c]` array along its LAST axis, from the zero accumulator, read at `(p, q)`. -/
theorem sumLast_apply {a b c : ℕ} (src : FVec Ideal ⟨3, ![a, b, c]⟩ .f32)
    (h : Shape.Reduces ⟨3, ![a, b, c]⟩ [2] ⟨2, ![a, b]⟩) (hφ : FKind.Formats .f32)
    (hacc : (0x00000000#32 : BitVec 32) = 0x00000000#32) (p : Fin a) (q : Fin b) :
    multiReduction .add [2] ⟨2, ![a, b]⟩ src 0x00000000#32 h hφ hacc (ix2 p q) = ∑ k : Fin c, src (ix3 p q k) := by
  refine (Ideal.multiReduction_add_single src 0x00000000#32 h hφ hacc (ix2 p q)).trans ?_
  refine Finset.sum_congr rfl fun k _ => congrArg src ?_
  funext d
  match d with
  | ⟨0, _⟩ => rfl
  | ⟨1, _⟩ => rfl
  | ⟨2, _⟩ => rfl

/-- The sum of an `[a, b, c]` array along its MIDDLE axis, from the zero accumulator, read at `(p, r)`. -/
theorem sumMiddle_apply {a b c : ℕ} (src : FVec Ideal ⟨3, ![a, b, c]⟩ .f32)
    (h : Shape.Reduces ⟨3, ![a, b, c]⟩ [1] ⟨2, ![a, c]⟩) (hφ : FKind.Formats .f32)
    (hacc : (0x00000000#32 : BitVec 32) = 0x00000000#32) (p : Fin a) (r : Fin c) :
    multiReduction .add [1] ⟨2, ![a, c]⟩ src 0x00000000#32 h hφ hacc (ix2 p r) = ∑ k : Fin b, src (ix3 p k r) := by
  refine (Ideal.multiReduction_add_single src 0x00000000#32 h hφ hacc (ix2 p r)).trans ?_
  refine Finset.sum_congr rfl fun k _ => congrArg src ?_
  funext d
  match d with
  | ⟨0, _⟩ => rfl
  | ⟨1, _⟩ => rfl
  | ⟨2, _⟩ => rfl

/-- The maximum of a row of an `[a, b]` array, taken from the word for minus infinity, read at row `p`: the fold of
    `max` from that word's value over the row's entries (the word is not evaluated). -/
theorem rowMax_apply {a b : ℕ} (src : FVec Ideal ⟨2, ![a, b]⟩ .f32)
    (h : Shape.Reduces ⟨2, ![a, b]⟩ [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun j => src (ix2 p j)) := by
  refine (Ideal.multiReduction_maximumf_single src 0xFF800000#32 h hφ hacc (ix1 p)).trans ?_
  show (Finset.univ : Finset (Fin b)).fold max (Ideal.ofBits .f32 0xFF800000#32) (src ∘ h.lift (ix1 p)) = _
  refine congrArg (fun f => Finset.fold max (Ideal.ofBits .f32 0xFF800000#32) f (Finset.univ : Finset (Fin b))) (funext fun j => congrArg src ?_)
  funext d
  match d with
  | ⟨0, _⟩ => rfl
  | ⟨1, _⟩ => rfl

end Idealize.ShloMosaic.Rank3Read

end
-- ==== Proof.KernelBlock.lean ====
/-
  The kernel body's result at one entry of its output block.

  At a grid point the body holds a block of 32 queries (32 tokens each, 128 features) and the whole bank of document
  tokens laid out [document token, candidate, feature]. It reads the bank in four slabs of 32 document tokens. For one
  slab it flattens the queries to 1024 rows (row 32·b + s is token s of query b) and the slab to 4096 rows (row
  128·j + c is document token j of candidate c), multiplies rows by rows, so entry (32·b + s, 128·j + c) of the product
  is the inner product of query token (b, s) with document token (j, c); split again as [1024, 32, 128], the maximum
  along the middle axis is the best document token of the slab for each (query token, candidate). The four slab maxima
  are joined by max, the 1024 rows are split back into [32, 32, ·] and summed over the query tokens, and the sum is
  divided by 32 and by 0.05.
-/
import proofs.«134489_j74878459838967_2_alg».proof.Proof.Gen.KernelIdeal.Skeleton
import proofs.«134489_j74878459838967_2_alg».proof.Proof.LibMergedAxes
import proofs.«134489_j74878459838967_2_alg».proof.Proof.LibTransposedDot
import proofs.«134489_j74878459838967_2_alg».proof.Proof.LibRank3Read

noncomputable section

open scoped BigOperators

namespace Cert.MaxSim.Block

open Idealize.ShloMosaic Idealize.ShloMosaic.ValueIdx Idealize.ShloMosaic.MergedAxes
open Cert.KernelIdeal Cert.KernelIdeal.Facts₀

variable [Cert.KernelIdeal.Facts]

/-- The block's queries flattened to 1024 rows: row `32·b + s` is token `s` of query `b`. -/
def flatQ (x0 : Vec Ideal S32x32x128 .bf16) : FVec Ideal S1024x128 .bf16 :=
  shapeCast S1024x128 (shapeCast S32x32x128 x0 shapeCasts_S32x32x128_S32x32x128 : FVec Ideal S32x32x128 .bf16)
    shapeCasts_S32x32x128_S1024x128

theorem flatQ_apply (x0 : Vec Ideal S32x32x128 .bf16) (b : Fin 32) (s : Fin 32) (h : Fin 128) (row : Fin 1024)
    (hrow : row.val = b.val * 32 + s.val) : flatQ x0 (ix2 row h) = x0 (ix3 b s h) :=
  (shapeCast_mergeHead_apply _ shapeCasts_S32x32x128_S1024x128 b s h row hrow).trans (by rw [shapeCast_self])

/-- One slab of 32 document tokens against the flattened queries: flatten the slab, multiply rows by rows, split the
    columns into (document token, candidate), take the maximum over the document tokens. -/
def slab (q : FVec Ideal S1024x128 .bf16) (v : Vec Ideal S32x128x128 .bf16) : FVec Ideal S1024x128 .f32 :=
  multiReduction .maximumf [1] S1024x128
    (shapeCast S1024x32x128
      (matmul dot_S1024x128_S4096x128_S1024x4096_1_1_0_0_n_n none q
        (shapeCast S4096x128 (shapeCast S32x128x128 v shapeCasts_S32x128x128_S32x128x128 : FVec Ideal S32x128x128 .bf16)
          shapeCasts_S32x128x128_S4096x128 : FVec Ideal S4096x128 .bf16)
        (constant S1024x4096 .f32 0x00000000#32))
      shapeCasts_S1024x4096_S1024x32x128)
    0xFF800000#32 reduces_S1024x32x128_S1024x128 (.inl rfl) rfl

/-- The best inner product of query row `r` (a flattened query token) against the 32 document tokens of one slab, for
    candidate `c`. -/
def slabMax (q : FVec Ideal S1024x128 .bf16) (v : Vec Ideal S32x128x128 .bf16) (r : Fin 1024) (c : Fin 128) : EReal :=
  (Finset.univ : Finset (Fin 32)).fold max ⊥ (fun j => ∑ h : Fin 128, q (ix2 r h) * v (ix3 j c h))

theorem hD : dot_S1024x128_S4096x128_S1024x4096_1_1_0_0_n_n = DotDims.transposedRhs 1024 128 4096 := rfl

theorem slab_apply (q : FVec Ideal S1024x128 .bf16) (v : Vec Ideal S32x128x128 .bf16) (r : Fin 1024) (c : Fin 128) :
    slab q v (ix2 r c) = slabMax q v r c := by
  unfold slab
  refine (maxMiddle_apply _ reduces_S1024x32x128_S1024x128 (.inl rfl) rfl r c).trans ?_
  unfold slabMax
  refine congrArg (fun f => Finset.fold max (⊥ : EReal) f (Finset.univ : Finset (Fin 32))) (funext fun j => ?_)
  have hcol : j.val * 128 + c.val < 4096 := by have := j.isLt; have := c.isLt; omega
  refine (shapeCast_splitTail_apply _ shapeCasts_S1024x4096_S1024x32x128 (by norm_num) r j c ⟨j.val * 128 + c.val, hcol⟩ rfl).trans ?_
  refine (TransposedDot.matmul_transposedRhs _ hD none q _ r ⟨j.val * 128 + c.val, hcol⟩).trans ?_
  refine Finset.sum_congr rfl fun h _ => congrArg (q (ix2 r h) * ·) ?_
  refine (shapeCast_mergeHead_apply _ shapeCasts_S32x128x128_S4096x128 j c h ⟨j.val * 128 + c.val, hcol⟩ rfl).trans ?_
  rw [shapeCast_self]

/-- The four slab maxima joined, row by row. -/
def joined (x0 : Vec Ideal S32x32x128 .bf16) (v3 v9 v16 v23 : Vec Ideal S32x128x128 .bf16) : FVec Ideal S1024x128 .f32 :=
  maximumf (maximumf (maximumf (slab (flatQ x0) v3) (slab (flatQ x0) v9)) (slab (flatQ x0) v16)) (slab (flatQ x0) v23)

/-- The sum over the query tokens of the joined maxima, as the body forms it. -/
def summed (x0 : Vec Ideal S32x32x128 .bf16) (v3 v9 v16 v23 : Vec Ideal S32x128x128 .bf16) : FVec Ideal S32x128 .f32 :=
  multiReduction .add [1] S32x128 (shapeCast S32x32x128 (joined x0 v3 v9 v16 v23) shapeCasts_S1024x128_S32x32x128)
    0x00000000#32 reduces_S32x32x128_S32x128 (.inl rfl) rfl

/-- The body's arithmetic is these stages (the printed lines, grouped). -/
theorem pay_eq (x0 : Vec Ideal S32x32x128 .bf16) (v3 v9 v16 v23 : Vec Ideal S32x128x128 .bf16) :
    Gen.k0_pay1 (Gen.k0_pay2 x0 v3 v9 v16 v23)
      = divf (divf (summed x0 v3 v9 v16 v23) (broadcast S32x128 (Scalar.ofBits (F := Ideal) .f32 0x42000000#32)))
          (broadcast S32x128 (Scalar.ofBits (F := Ideal) .f32 0x3D4CCCCD#32)) := rfl

/-- The joined maxima at a row: max is taken entry by entry. -/
theorem joined_apply (x0 : Vec Ideal S32x32x128 .bf16) (v3 v9 v16 v23 : Vec Ideal S32x128x128 .bf16) (i : S1024x128.Idx) :
    joined x0 v3 v9 v16 v23 i
      = max (max (max (slab (flatQ x0) v3 i) (slab (flatQ x0) v9 i)) (slab (flatQ x0) v16 i)) (slab (flatQ x0) v23 i) := by
  unfold joined
  rw [maximumf_apply, maximumf_apply, maximumf_apply]

/-- A slab's maximum against the flattened queries, in the block's own coordinates. -/
theorem slabMax_flatQ (x0 : Vec Ideal S32x32x128 .bf16) (v : Vec Ideal S32x128x128 .bf16) (b s : Fin 32) (c : Fin 128)
    (row : Fin 1024) (hrow : row.val = b.val * 32 + s.val) :
    slabMax (flatQ x0) v row c
      = (Finset.univ : Finset (Fin 32)).fold max ⊥ (fun j => ∑ h : Fin 128, x0 (ix3 b s h) * v (ix3 j c h)) := by
  unfold slabMax
  refine congrArg (fun f => Finset.fold max (⊥ : EReal) f (Finset.univ : Finset (Fin 32))) (funext fun j => ?_)
  refine Finset.sum_congr rfl fun h _ => ?_
  rw [flatQ_apply x0 b s h row hrow]

theorem summed_apply (x0 : Vec Ideal S32x32x128 .bf16) (v3 v9 v16 v23 : Vec Ideal S32x128x128 .bf16) (b : Fin 32) (c : Fin 128) :
    summed x0 v3 v9 v16 v23 (ix2 b c)
      = ∑ s : Fin 32,
          max (max (max
            ((Finset.univ : Finset (Fin 32)).fold max ⊥ (fun j => ∑ h : Fin 128, x0 (ix3 b s h) * v3 (ix3 j c h)))
            ((Finset.univ : Finset (Fin 32)).fold max ⊥ (fun j => ∑ h : Fin 128, x0 (ix3 b s h) * v9 (ix3 j c h))))
            ((Finset.univ : Finset (Fin 32)).fold max ⊥ (fun j => ∑ h : Fin 128, x0 (ix3 b s h) * v16 (ix3 j c h))))
            ((Finset.univ : Finset (Fin 32)).fold max ⊥ (fun j => ∑ h : Fin 128, x0 (ix3 b s h) * v23 (ix3 j c h))) := by
  unfold summed
  refine (Rank3Read.sumMiddle_apply _ reduces_S32x32x128_S32x128 (.inl rfl) rfl b c).trans ?_
  refine Finset.sum_congr rfl fun s _ => ?_
  have hrow : b.val * 32 + s.val < 1024 := by have := b.isLt; have := s.isLt; omega
  refine (shapeCast_splitHead_apply _ shapeCasts_S1024x128_S32x32x128 b s c ⟨b.val * 32 + s.val, hrow⟩ rfl).trans ?_
  rw [joined_apply, slab_apply, slab_apply, slab_apply, slab_apply,
    slabMax_flatQ x0 v3 b s c _ rfl, slabMax_flatQ x0 v9 b s c _ rfl, slabMax_flatQ x0 v16 b s c _ rfl,
    slabMax_flatQ x0 v23 b s c _ rfl]

/-- The body's result at entry `(b, c)` of the output block: over the block's queries `x0` and the four slabs. -/
theorem payload_apply (x0 : Vec Ideal S32x32x128 .bf16) (v3 v9 v16 v23 : Vec Ideal S32x128x128 .bf16) (b : Fin 32) (c : Fin 128) :
    Gen.k0_pay1 (Gen.k0_pay2 x0 v3 v9 v16 v23) (ix2 b c)
      = Ideal.div (Ideal.div
          (∑ s : Fin 32,
            max (max (max
              ((Finset.univ : Finset (Fin 32)).fold max ⊥ (fun j => ∑ h : Fin 128, x0 (ix3 b s h) * v3 (ix3 j c h)))
              ((Finset.univ : Finset (Fin 32)).fold max ⊥ (fun j => ∑ h : Fin 128, x0 (ix3 b s h) * v9 (ix3 j c h))))
              ((Finset.univ : Finset (Fin 32)).fold max ⊥ (fun j => ∑ h : Fin 128, x0 (ix3 b s h) * v16 (ix3 j c h))))
              ((Finset.univ : Finset (Fin 32)).fold max ⊥ (fun j => ∑ h : Fin 128, x0 (ix3 b s h) * v23 (ix3 j c h))))
          (Ideal.ofBits .f32 0x42000000#32)) (Ideal.ofBits .f32 0x3D4CCCCD#32) := by
  rw [pay_eq, ← summed_apply]
  rfl

end Cert.MaxSim.Block

end
-- ==== Proof.Spec.lean ====
/-
  What both programs compute, as functions on the extended reals.

  The score of query b against candidate c is the late-interaction similarity: for each of the 32 query tokens s the
  largest inner product (over the 128 features h) of that token with any of the candidate's 128 document tokens d,
  summed over the query tokens, divided by 32 and then by the f32 number nearest 0.05:
      score b c = ((Σ_s max_d Σ_h Q(b,s,h) · D(c,d,h)) / 32) / 0.05.
  The loss is the cross-entropy of each query's score row against candidate 0, averaged over the 64 queries:
  minus the mean over b of (row b shifted by its maximum, less the log of the sum of its exponentials) at column 0.
  The loss is stated once, over any score matrix, so that two programs whose score matrices agree have equal losses.
-/
import proofs.«134489_j74878459838967_2_alg».proof.KernelIdeal
import Idealize.ShloMosaic.PureOps.Ideal
import Idealize.ShloMosaic.Lib.ValueIdx

noncomputable section

open scoped BigOperators

namespace Cert.MaxSim

open Idealize.ShloMosaic Idealize.ShloMosaic.ValueIdx Cert.KernelIdeal Cert.KernelIdeal.Facts₀

/-- The inner product of query token `(b, s)` with document token `(c, d)` over the features. -/
def inner (Q : FVec Ideal S64x32x128 .f32) (D : FVec Ideal S128x128x128 .f32) (b : Fin 64) (s : Fin 32) (c : Fin 128) (d : Fin 128) :
    EReal :=
  ∑ h : Fin 128, Q (ix3 b s h) * D (ix3 c d h)

/-- The score of query `b` against candidate `c`. -/
def scoreAt (Q : FVec Ideal S64x32x128 .f32) (D : FVec Ideal S128x128x128 .f32) (b : Fin 64) (c : Fin 128) : EReal :=
  Ideal.div (Ideal.div (∑ s : Fin 32, (Finset.univ : Finset (Fin 128)).fold max ⊥ (fun d => inner Q D b s c d))
    (Ideal.ofBits .f32 0x42000000#32)) (Ideal.ofBits .f32 0x3D4CCCCD#32)

/-- The score matrix. -/
def score (Q : FVec Ideal S64x32x128 .f32) (D : FVec Ideal S128x128x128 .f32) : FVec Ideal S64x128 .f32 :=
  fun i => scoreAt Q D (i 0) (i 1)

theorem score_ix2 (Q : FVec Ideal S64x32x128 .f32) (D : FVec Ideal S128x128x128 .f32) (b : Fin 64) (c : Fin 128) :
    score Q D (ix2 b c) = scoreAt Q D b c := rfl

variable [Cert.KernelIdeal.Facts]

/-- The loss of a score matrix: minus the mean over the rows of the row's log-softmax at column 0. -/
def loss (X : FVec Ideal S64x128 .f32) : FVec Ideal S_ .f32 :=
  Host.negf (F := Ideal) (Host.divf (F := Ideal) (Host.reduceAdd (F := Ideal) (shapeCast _ (extractStridedSlice S64x1 ![0, 0] (subf (subf X (broadcastInDim S64x128 ![0, 1] bcast_S64x1_S64x128_0_1 (broadcastInDim S64x1 ![0] bcast_S64_S64x1_0 (maximumf (broadcastInDim S64 ![] bcast_S_S64 (constant (F := Ideal) S_ .f32 0xFF800000#32)) (Host.reduce (FloatOps.maximumf (F := Ideal) (φ := .f32)) X (constant (F := Ideal) S_ .f32 0xFF800000#32) reducesTo_S64x128_S64_d1 h_S_))))) (broadcastInDim S64x128 ![0, 1] bcast_S64x1_S64x128_0_1 (Host.log (F := Ideal) (broadcastInDim S64x1 ![0] bcast_S64_S64x1_0 (Host.reduceAdd (F := Ideal) (Host.exp (F := Ideal) (subf X (broadcastInDim S64x128 ![0, 1] bcast_S64x1_S64x128_0_1 (broadcastInDim S64x1 ![0] bcast_S64_S64x1_0 (maximumf (broadcastInDim S64 ![] bcast_S_S64 (constant (F := Ideal) S_ .f32 0xFF800000#32)) (Host.reduce (FloatOps.maximumf (F := Ideal) (φ := .f32)) X (constant (F := Ideal) S_ .f32 0xFF800000#32) reducesTo_S64x128_S64_d1 h_S_)))))) (constant (F := Ideal) S_ .f32 0x00000000#32) reducesTo_S64x128_S64_d1 h_S_))))) slices_S64x128_S64x1_0_0) shapeCasts_S64x1_S64) (constant (F := Ideal) S_ .f32 0x00000000#32) reducesTo_S64_S_d0 h_S_) (constant (F := Ideal) S_ .f32 0x42800000#32))

end Cert.MaxSim

end
-- ==== Proof.KernelPoint.lean ====
/-
  One grid point's output block, entry by entry, as the score of the arrays the point's blocks are cut from.

  The body reads the bank in four slabs: slab k is document tokens 32·k … 32·k + 31. If the point's query block holds
  rows of a query array Q (entry (b, s, h) of the block is Q (B, s, h)) and its bank block is a document array D with
  its first two axes exchanged (entry (d, c, h) is D (c, d, h)), then entry (b, c) of what the body stores is the score
  of query B against candidate c: each slab's maximum runs over 32 of the candidate's 128 document tokens, and the
  maximum of the four slab maxima is the maximum over all 128.
-/
import proofs.«134489_j74878459838967_2_alg».proof.Proof.Gen.KernelIdeal.Frame
import proofs.«134489_j74878459838967_2_alg».proof.Proof.KernelBlock
import proofs.«134489_j74878459838967_2_alg».proof.Proof.Spec

noncomputable section

open scoped BigOperators

namespace Cert.MaxSim.Block

open Idealize.ShloMosaic Idealize.ShloMosaic.ValueIdx Idealize.ShloMosaic.MergedAxes
open Cert.KernelIdeal Cert.KernelIdeal.Facts₀

variable [Cert.KernelIdeal.Facts]

/-- A slab is 32 consecutive document tokens of the bank: entry `(j, c, h)` of the slab at offset `off` is entry
    `(off + j, c, h)` of the bank. -/
theorem ld_slab (x1 : Vec Ideal S128x128x128 .bf16) (off : ℕ)
    (inb : ∀ a, (![off, 0, 0] : Fin 3 → ℕ) a + S32x128x128.size a ≤ S128x128x128.size a)
    (j : Fin 32) (c h : Fin 128) (d : Fin 128) (hd : d.val = off + j.val) :
    View.ld x1 (Rect.unit (s := S128x128x128) ![off, 0, 0] S32x128x128.size inb) (ix3 j c h) = x1 (ix3 d c h) := by
  show x1 ((Rect.unit (s := S128x128x128) ![off, 0, 0] S32x128x128.size inb).emb (ix3 j c h)) = _
  refine congrArg x1 (funext fun a => Fin.ext ?_)
  match a with
  | ⟨0, _⟩ => show off + 1 * j.val = d.val; omega
  | ⟨1, _⟩ => show 0 + 1 * c.val = c.val; omega
  | ⟨2, _⟩ => show 0 + 1 * h.val = h.val; omega

/-- Entry `(b, c)` of what the body stores, when its query block's row `b` is query `B` of `Q` and its bank block is `D`
    with the first two axes exchanged: the score of query `B` against candidate `c`. -/
theorem block_score (x0 : Vec Ideal S32x32x128 .bf16) (x1 : Vec Ideal S128x128x128 .bf16)
    (Q : FVec Ideal S64x32x128 .f32) (D : FVec Ideal S128x128x128 .f32) (B : Fin 64) (b : Fin 32) (c : Fin 128)
    (hx0 : ∀ (s : Fin 32) (h : Fin 128), x0 (ix3 b s h) = Q (ix3 B s h))
    (hx1 : ∀ (d cc h : Fin 128), x1 (ix3 d cc h) = D (ix3 cc d h)) :
    Gen.k0_pay1 (Gen.k0_pay2 x0 (View.ld x1 Gen.r0_1) (View.ld x1 Gen.r0_2) (View.ld x1 Gen.r0_3) (View.ld x1 Gen.r0_4)) (ix2 b c)
      = MaxSim.scoreAt Q D B c := by
  rw [payload_apply]
  unfold MaxSim.scoreAt
  refine congrArg (Ideal.div · (Ideal.ofBits .f32 0x3D4CCCCD#32)) ?_
  refine congrArg (Ideal.div · (Ideal.ofBits .f32 0x42000000#32)) ?_
  refine Finset.sum_congr rfl fun s _ => ?_
  refine max_four_blocks' (J := 32) (T := 128) rfl (fun d => MaxSim.inner Q D B s c d) _ _ _ _ ?_ ?_ ?_ ?_
  · intro j d hd
    unfold MaxSim.inner
    refine Finset.sum_congr rfl fun h _ => ?_
    rw [hx0 s h, ld_slab x1 0 _ j c h d (by omega), hx1]
  · intro j d hd
    unfold MaxSim.inner
    refine Finset.sum_congr rfl fun h _ => ?_
    rw [hx0 s h, ld_slab x1 32 _ j c h d (by omega), hx1]
  · intro j d hd
    unfold MaxSim.inner
    refine Finset.sum_congr rfl fun h _ => ?_
    rw [hx0 s h, ld_slab x1 64 _ j c h d (by omega), hx1]
  · intro j d hd
    unfold MaxSim.inner
    refine Finset.sum_congr rfl fun h _ => ?_
    rw [hx0 s h, ld_slab x1 96 _ j c h d (by omega), hx1]

end Cert.MaxSim.Block

end
-- ==== Proof.KernelArray.lean ====
/-
  The score array after the kernel's region.

  The region runs the body at two grid points. Point t takes queries 32·t … 32·t + 31 (with all their tokens and
  features) and the whole bank, and writes rows 32·t … 32·t + 31 of the [64, 128] score array. The queries the region
  finds are the argument's own entries (only their format was changed before the region), and the bank it finds is the
  document argument with its first two axes exchanged. So what point t writes back is rows 32·t … of the score matrix of
  the two arguments, the two blocks of rows cover the array, and the array ends holding the score matrix.
-/
import proofs.«134489_j74878459838967_2_alg».proof.Proof.KernelPoint
import Idealize.ShloMosaic.Lib.Pipeline.Value
import Idealize.ShloMosaic.Lib.StableHlo.Run

set_option maxRecDepth 16384

noncomputable section

open scoped BigOperators

namespace Cert.MaxSim.Array

open Idealize.ShloMosaic Idealize.ShloMosaic.TcCoe Idealize.ShloMosaic.ValueIdx Idealize.SL.Sem
open Idealize.ShloMosaic.Pipeline (Dat)
open Cert.KernelIdeal Cert.KernelIdeal.Facts₀

variable (m : (ℓ : Loc nD τ sig) → Buf (Elt Ideal) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The queries as the region finds them: the argument's entries (a change of format is the identity on the extended
    reals). -/
theorem queries_apply (c : Dev nD) (i : S64x32x128.Idx) :
    (Gen.V m c main_v0 : S64x32x128.Idx → Elt Ideal .bf16) i
      = (m ((c : Thread nD τ).loc main_arg0) : S64x32x128.Idx → Elt Ideal .f32) i := by
  have e : @Eq (FVec Ideal S64x32x128 .bf16) (Gen.V m c main_v0)
      (truncf .bf16 (m ((c : Thread nD τ).loc main_arg0) : FVec Ideal S64x32x128 .f32) bitsLt_bf16_f32) := by
    show StableHlo.after Gen.hostOps0 (fun b => m (c, b)) (Proc.devRef .tc main_v0) = _
    after_results <;> rfl
  rw [e]
  rfl

/-- The bank as the region finds it: the document argument with its first two axes exchanged. -/
theorem bank_apply (c : Dev nD) (d cc h : Fin 128) :
    (Gen.V m c main_v2 : S128x128x128.Idx → Elt Ideal .bf16) (ix3 d cc h)
      = (m ((c : Thread nD τ).loc main_arg1) : S128x128x128.Idx → Elt Ideal .f32) (ix3 cc d h) := by
  have e : @Eq (FVec Ideal S128x128x128 .bf16) (Gen.V m c main_v2)
      (truncf .bf16 (transpose S128x128x128 [1, 0, 2] (m ((c : Thread nD τ).loc main_arg1) : FVec Ideal S128x128x128 .f32)
          transposes_S128x128x128_S128x128x128_1_0_2 : FVec Ideal S128x128x128 .f32) bitsLt_bf16_f32) := by
    show StableHlo.after Gen.hostOps0 (fun b => m (c, b)) (Proc.devRef .tc main_v2) = _
    after_results <;> rfl
  rw [e]
  show transpose S128x128x128 [1, 0, 2] (m ((c : Thread nD τ).loc main_arg1) : FVec Ideal S128x128x128 .f32)
      transposes_S128x128x128_S128x128x128_1_0_2 (ix3 d cc h) = _
  exact transpose_apply [1, 0, 2] _ transposes_S128x128x128_S128x128x128_1_0_2 (ix3 d cc h) (ix3 cc d h) (fun b => by
    match b with
    | ⟨0, _⟩ => rfl
    | ⟨1, _⟩ => rfl
    | ⟨2, _⟩ => rfl)

/-- The printed index maps, decided over the two grid points: the query block and the output block move with the point
    along the first axis, the bank's block is the whole bank. -/
theorem idx_facts : ∀ t : Fin cfg0.N, win0_0.index t (0 : Fin 3) = t.val ∧ win0_0.index t (1 : Fin 3) = 0
    ∧ win0_0.index t (2 : Fin 3) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- Row `b` of the query block at point `t` is query `32·t + b` of the argument. -/
theorem qblock_apply (c : Dev nD) (t : Fin cfg0.N) (b s : Fin 32) (h : Fin 128) (B : Fin 64) (hB : B.val = t.val * 32 + b.val) :
    (Gen.iblk m c 0 t : Vec Ideal S32x32x128 .bf16) (ix3 b s h)
      = (m ((c : Thread nD τ).loc main_arg0) : S64x32x128.Idx → Elt Ideal .f32) (ix3 B s h) := by
  obtain ⟨e0, e1, e2, -⟩ := idx_facts t
  unfold Gen.iblk
  rw [View.read_apply]
  show (Gen.V m c main_v0 : S64x32x128.Idx → Elt Ideal .bf16) (((cfg0.win 0).blk t).view.emb (ix3 b s h)) = _
  refine (queries_apply m c _).trans ?_
  refine congrArg (m ((c : Thread nD τ).loc main_arg0) : S64x32x128.Idx → Elt Ideal .f32) (funext fun a => Fin.ext ?_)
  match a with
  | ⟨0, _⟩ => show win0_0.index t (0 : Fin 3) * 32 + 1 * b.val = B.val; rw [e0, hB]; omega
  | ⟨1, _⟩ => show win0_0.index t (1 : Fin 3) * 32 + 1 * s.val = s.val; rw [e1]; omega
  | ⟨2, _⟩ => show win0_0.index t (2 : Fin 3) * 128 + 1 * h.val = h.val; rw [e2]; omega

/-- The bank's block at either point is the whole bank. -/
theorem bankblock_apply (c : Dev nD) (t : Fin cfg0.N) (d cc h : Fin 128) :
    (Gen.iblk m c 1 t : Vec Ideal S128x128x128 .bf16) (ix3 d cc h)
      = (m ((c : Thread nD τ).loc main_arg1) : S128x128x128.Idx → Elt Ideal .f32) (ix3 cc d h) := by
  obtain ⟨-, -, -, e0, e1, e2, -⟩ := idx_facts t
  unfold Gen.iblk
  rw [View.read_apply]
  show (Gen.V m c main_v2 : S128x128x128.Idx → Elt Ideal .bf16) (((cfg0.win 1).blk t).view.emb (ix3 d cc h)) = _
  refine Eq.trans (congrArg (Gen.V m c main_v2 : S128x128x128.Idx → Elt Ideal .bf16) (funext fun a => Fin.ext ?_)) (bank_apply m c d cc h)
  match a with
  | ⟨0, _⟩ => show win0_1.index t (0 : Fin 3) * 128 + 1 * d.val = d.val; rw [e0]; omega
  | ⟨1, _⟩ => show win0_1.index t (1 : Fin 3) * 128 + 1 * cc.val = cc.val; rw [e1]; omega
  | ⟨2, _⟩ => show win0_1.index t (2 : Fin 3) * 128 + 1 * h.val = h.val; rw [e2]; omega

/-- A block whose entry `(b, cc)` is entry `(32·t + b, cc)` of an array `G` is block `t` of `G`. -/
theorem block_of_entries (t : Fin cfg0.N) (X : Vec Ideal S32x128 .f32) (G : FVec Ideal S64x128 .f32)
    (h : ∀ (b : Fin 32) (cc : Fin 128) (B : Fin 64), B.val = t.val * 32 + b.val → X (ix2 b cc) = G (ix2 B cc)) :
    (cfg0.win 2).cut (grid0.coords t) X = ((cfg0.win 2).blk t).view.read (Elt Ideal) G := by
  obtain ⟨-, -, -, -, -, -, e0, e1⟩ := idx_facts t
  have hN : cfg0.N = 2 := Gen.N_0
  funext y
  have hy0 : (y 0).val < 32 := (y 0).isLt
  have hy1 : (y 1).val < 128 := (y 1).isLt
  have hB : t.val * 32 + (y 0).val < 64 := by have := t.isLt; omega
  show X y = G (((cfg0.win 2).blk t).view.emb y)
  have hy : (y : S32x128.Idx) = ix2 (⟨(y 0).val, hy0⟩ : Fin 32) (⟨(y 1).val, hy1⟩ : Fin 128) := funext fun a => Fin.ext (by
    match a with
    | ⟨0, _⟩ => rfl
    | ⟨1, _⟩ => rfl)
  have hi : ((cfg0.win 2).blk t).view.emb y
      = ix2 (⟨t.val * 32 + (y 0).val, hB⟩ : Fin 64) (⟨(y 1).val, hy1⟩ : Fin 128) := funext fun a => Fin.ext (by
    match a with
    | ⟨0, _⟩ => show win0_2.index t (0 : Fin 2) * 32 + 1 * (y 0).val = t.val * 32 + (y 0).val; rw [e0]; omega
    | ⟨1, _⟩ => show win0_2.index t (1 : Fin 2) * 128 + 1 * (y 1).val = (y 1).val; rw [e1]; omega)
  exact (congrArg X hy).trans ((h _ _ _ rfl).trans (congrArg G hi).symm)

variable [Cert.KernelIdeal.Facts]

/-- WHAT POINT `t` WRITES BACK is block `t` of the score matrix of the two arguments. -/
theorem flushed_eq (c : Dev nD) (t : Fin cfg0.N) :
    (Gen.dats m 0 c).flushed 2 t = ((cfg0.win 2).blk t).view.read (Elt Ideal)
      (MaxSim.score (m ((c : Thread nD τ).loc main_arg0)) (m ((c : Thread nD τ).loc main_arg1))) := by
  show (cfg0.win 2).cut (grid0.coords t) ((Gen.dats m 0 c).after 2 t) = _
  rw [Gen.after0_2]
  unfold Gen.out0_2
  rw [View.canon_unit_zero hz2]
  simp only [View.ld_unit_zero (S := S32x32x128) hz3]
  refine block_of_entries t
    (Gen.k0_pay1 (Gen.k0_pay2 (Gen.iblk m c 0 t) (View.ld (Gen.iblk m c 1 t) Gen.r0_1) (View.ld (Gen.iblk m c 1 t) Gen.r0_2)
      (View.ld (Gen.iblk m c 1 t) Gen.r0_3) (View.ld (Gen.iblk m c 1 t) Gen.r0_4)))
    (MaxSim.score (m ((c : Thread nD τ).loc main_arg0)) (m ((c : Thread nD τ).loc main_arg1))) fun b cc B hB => ?_
  rw [MaxSim.score_ix2]
  exact Block.block_score (Gen.iblk m c 0 t) (Gen.iblk m c 1 t) (m ((c : Thread nD τ).loc main_arg0))
    (m ((c : Thread nD τ).loc main_arg1)) B b cc (fun s h => qblock_apply m c t b s h B hB) (fun d c' h => bankblock_apply m c t d c' h)

/-- An index of the score array is in point `t`'s block iff each coordinate is in the block's range on its axis. -/
theorem mem_blk (t : Fin cfg0.N) (i : S64x128.Idx) :
    i ∈ ((cfg0.win 2).blk t).view.set ↔ ∀ a : Fin 2, win0_2.index t a * S32x128.size a ≤ (i a).val
      ∧ (i a).val < win0_2.index t a * S32x128.size a + S32x128.size a := by
  show i ∈ ((View.whole main_v3).slice (win0_2.rect t)).set ↔ _
  rw [View.set_slice_whole, Rect.mem_set_unit]
  exact Iff.rfl

/-- Row `r` of the score array is written by point `r / 32`. -/
theorem cover (i : S64x128.Idx) : ∃ t : Fin cfg0.N, (cfg0.win 2).flush t = true ∧ i ∈ ((cfg0.win 2).blk t).view.set := by
  have h0 : (i 0).val < 64 := (i 0).isLt
  have h1 : (i 1).val < 128 := (i 1).isLt
  have hN : cfg0.N = 2 := Gen.N_0
  obtain ⟨t, ht⟩ : ∃ t : Fin cfg0.N, t.val = (i 0).val / 32 := ⟨⟨(i 0).val / 32, by omega⟩, rfl⟩
  obtain ⟨-, -, -, -, -, -, e0, e1⟩ := idx_facts t
  refine ⟨t, Gen.flush0_2 t, ?_⟩
  rw [mem_blk]
  intro a
  match a with
  | ⟨0, _⟩ =>
    show win0_2.index t (0 : Fin 2) * 32 ≤ (i 0).val ∧ (i 0).val < win0_2.index t (0 : Fin 2) * 32 + 32
    rw [e0, ht]; omega
  | ⟨1, _⟩ =>
    show win0_2.index t (1 : Fin 2) * 128 ≤ (i 1).val ∧ (i 1).val < win0_2.index t (1 : Fin 2) * 128 + 128
    rw [e1]; omega

/-- THE SCORE ARRAY after the region is the score matrix of the two arguments. -/
theorem final (c : Dev nD) : (Gen.dats m 0 c).arrAt 2 cfg0.N
    = MaxSim.score (m ((c : Thread nD τ).loc main_arg0)) (m ((c : Thread nD τ).loc main_arg1)) :=
  (Gen.dats m 0 c).arrAt_eq_of_cover 2 _ (fun t _ => flushed_eq m c t) cover

end Cert.MaxSim.Array

end
-- ==== Proof.KernelRun.lean ====
/-
  The kernel program's run: its result is the loss of the score matrix of its two arguments.

  After the region the program applies, to the score array the region wrote, the row-wise log-softmax, takes column 0,
  averages over the 64 rows and negates: the loss of that array. The region leaves the score array at the score matrix
  of the arguments, every other buffer as it was, and the arguments are never written.
-/
import proofs.«134489_j74878459838967_2_alg».proof.Proof.KernelArray

set_option maxRecDepth 16384

noncomputable section

namespace Cert.MaxSim.Run

open Idealize.ShloMosaic Idealize.ShloMosaic.TcCoe Idealize.ShloMosaic.ValueIdx Idealize.SL.Sem
open Cert.KernelIdeal Cert.KernelIdeal.Facts₀

variable (m : (ℓ : Loc nD τ sig) → Buf (Elt Ideal) ℓ) (ρ : Dev nD → PrngReg)

/-- The score array as the lines after the region find it. -/
theorem scores_after (c : Dev nD) :
    Pipeline.withArrays (cfgs 0).spec c (Gen.V0 m c) (fun w => (Gen.dats m 0 c).arrAt w (cfgs 0).N) (Proc.devRef .tc main_v3)
      = MaxSim.score (m ((c : Thread nD τ).loc main_arg0)) (m ((c : Thread nD τ).loc main_arg1)) :=
  (Pipeline.withArrays_arr spec0 Gen.launch0.win.arr_inj c _ _ 2).trans (Array.final m c)

/-- The result buffer after the lines that follow the region: the loss of the score matrix. -/
theorem tail_eq (c : Dev nD) :
    Pipeline.afterTail₀ cfgs (Gen.dats m) 0 (Gen.V0 m) [Gen.hostOps1, Gen.hostOps1_1] c main_v9
      = MaxSim.loss (MaxSim.score (m ((c : Thread nD τ).loc main_arg0)) (m ((c : Thread nD τ).loc main_arg1))) := by
  unfold Pipeline.afterTail₀
  simp only [Gen.hostOps1, Gen.hostOps1_1, List.flatten_cons, List.flatten_nil, List.append_nil, List.cons_append,
    List.nil_append]
  after_results
  rw [scores_after m c]
  rfl

/-- Every weakly fair execution of the kernel program ends with its result at the loss of the score matrix of the
    arguments, and the arguments unchanged. -/
theorem run : θ_run defs (onTc (τ := τ) (main (F := Ideal))) ⟨m, fun _ => 0, ρ⟩ (fun r => ∀ c : Dev nD,
      r.2.mem ((c.tc : Thread nD τ).loc main_v9)
        = MaxSim.loss (MaxSim.score (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v9 (Pipeline.mem_restRefs_of main_v9 (by decide) (by decide))).trans (tail_eq m c),
     ((h c).2 main_arg0 (Pipeline.mem_restRefs_of main_arg0 (by decide) (by decide))).trans (Gen.W_main_arg0 m (Gen.dats m) c),
     ((h c).2 main_arg1 (Pipeline.mem_restRefs_of main_arg1 (by decide) (by decide))).trans (Gen.W_main_arg1 m (Gen.dats m) c)⟩)
    (Gen.run_main m ρ)

end Cert.MaxSim.Run

end
-- ==== Proof.LibLastAxisMax.lean ====
/-
  The host's maximum over the LAST axis of a rank-four array, read at an index, at the extended reals.

  A one-operand reduce with a maximum body over axis 3 of an [a, b, c, d] array, from an initial value that denotes −∞,
  is at (p, q, r) the fold of max from ⊥ over the d entries (p, q, r, j) — the same `Finset.fold` a row maximum of a
  matrix lands on, so a batched row maximum is compared with a matrix's row maximum entry by entry.
-/
import Idealize.ShloMosaic.PureOps.Ideal.Laws
import Idealize.ShloMosaic.Lib.ValueIdx

noncomputable section

namespace Idealize.ShloMosaic.LastAxisMax

open Idealize.ShloMosaic Idealize.ShloMosaic.ValueIdx

/-- The index (p, q, r, j) is the index (p, q, r) with j inserted on the reduced last axis. -/
theorem lift_last {a b c d : ℕ} (h : Shape.Reduces ⟨4, ![a, b, c, d]⟩ [3] ⟨3, ![a, b, c]⟩) (p : Fin a) (q : Fin b) (r : Fin c)
    (j : Fin d) : h.lift (ix3 p q r) j = ix4 p q r j := by
  funext e
  match e with
  | ⟨0, _⟩ => rfl
  | ⟨1, _⟩ => rfl
  | ⟨2, _⟩ => rfl
  | ⟨3, _⟩ => rfl

/-- The host's reduce with a maximum body over the last axis, from an initial value that denotes −∞, read at (p, q, r). -/
theorem hostMax_apply {a b c d : ℕ} {u : Shape} (x : (⟨4, ![a, b, c, d]⟩ : Shape).Idx → Ideal .f32) (init : u.Idx → Ideal .f32)
    (h' : Shape.ReducesTo ⟨4, ![a, b, c, d]⟩ [3] ⟨3, ![a, b, c]⟩) (h : Shape.Reduces ⟨4, ![a, b, c, d]⟩ [3] ⟨3, ![a, b, c]⟩)
    (hu : 0 < u.numel) (hinit : init (Shape.Idx.first hu) = ⊥) (p : Fin a) (q : Fin b) (r : Fin c) :
    Host.reduce (FloatOps.maximumf (F := Ideal) (φ := .f32)) x init h' hu (ix3 p q r)
      = (Finset.univ : Finset (Fin d)).fold max ⊥ (fun j => x (ix4 p q r j)) := by
  refine (Host.reduce_eq_fold_single (FloatOps.maximumf (F := Ideal) (φ := .f32)) x init h' h hu (ix3 p q r)).trans ?_
  rw [hinit]
  show (Finset.univ : Finset (Fin d)).fold max ⊥ (x ∘ h.lift (ix3 p q r)) = _
  exact congrArg (fun f => Finset.fold max ⊥ f (Finset.univ : Finset (Fin d))) (funext fun j => congrArg x (lift_last h p q r j))

end Idealize.ShloMosaic.LastAxisMax

end
-- ==== Proof.RefValue.lean ====
/-
  The reference's score matrix and loss are the specification's.

  The reference contracts the document array with the query array over the features (entry (c, d, b, s) is the sum over
  h of D (c, d, h) · Q (b, s, h)), reorders the axes to (b, c, s, d), takes the maximum over the document tokens d,
  sums over the query tokens s, and divides by 32 and by 0.05: at (b, c) this is the score, the product written in the
  other order. What follows the scores is the loss, applied to that matrix.
-/
import proofs.«134489_j74878459838967_2_alg».proof.Proof.Gen.ReferenceIdeal.Read
import proofs.«134489_j74878459838967_2_alg».proof.Proof.Spec
import proofs.«134489_j74878459838967_2_alg».proof.Proof.LibLastAxisMax
import proofs.«134489_j74878459838967_2_alg».proof.Proof.LibMergedAxes

noncomputable section

open scoped BigOperators

namespace Cert.MaxSim.Ref

open Idealize.ShloMosaic Idealize.ShloMosaic.ValueIdx
open Cert.ReferenceIdeal Cert.ReferenceIdeal.Facts₀ Cert.ReferenceIdeal.Read

variable [Cert.ReferenceIdeal.Facts]

/-- The reordered contraction at `(b, c, s, d)`: the inner product of query token `(b, s)` with document token `(c, d)`. -/
theorem late_apply (x0 : FVec Ideal S64x32x128 .f32) (x1 : FVec Ideal S128x128x128 .f32) (b : Fin 64) (c : Fin 128) (s : Fin 32)
    (d : Fin 128) : val_main_v1 (F := Ideal) x0 x1 (ix4 b c s d) = MaxSim.inner x0 x1 b s c d := by
  rw [val_main_v1_apply, val_main_v0_apply]
  unfold MaxSim.inner
  refine Finset.sum_congr rfl fun h _ => ?_
  have el : lidx_main_v0 (idx_main_v1 (ix4 b c s d)) h = ix3 c d h := funext fun a => Fin.ext (by
    match a with
    | ⟨0, _⟩ => rfl
    | ⟨1, _⟩ => rfl
    | ⟨2, _⟩ => rfl)
  have er : ridx_main_v0 (idx_main_v1 (ix4 b c s d)) h = ix3 b s h := funext fun a => Fin.ext (by
    match a with
    | ⟨0, _⟩ => rfl
    | ⟨1, _⟩ => rfl
    | ⟨2, _⟩ => rfl)
  rw [el, er]
  exact mul_comm _ _

/-- The maximum over the document tokens at `(b, c, s)`. -/
theorem best_apply (x0 : FVec Ideal S64x32x128 .f32) (x1 : FVec Ideal S128x128x128 .f32) (b : Fin 64) (c : Fin 128) (s : Fin 32) :
    val_main_v2 (F := Ideal) x0 x1 (ix3 b c s)
      = (Finset.univ : Finset (Fin 128)).fold max ⊥ (fun d => MaxSim.inner x0 x1 b s c d) := by
  unfold val_main_v2
  refine (LastAxisMax.hostMax_apply _ _ reducesTo_S64x128x32x128_S64x128x32_d3 (by decide) h_S_
    (MergedAxes.ofBits_negInf) b c s).trans ?_
  refine congrArg (fun f => Finset.fold max (⊥ : EReal) f (Finset.univ : Finset (Fin 128))) (funext fun d => ?_)
  exact late_apply x0 x1 b c s d

/-- The reference's score matrix is the specification's. -/
theorem scores_eq (x0 : FVec Ideal S64x32x128 .f32) (x1 : FVec Ideal S128x128x128 .f32) :
    val_main_v7 (F := Ideal) x0 x1 = MaxSim.score x0 x1 := by
  funext i
  obtain ⟨b, c, rfl⟩ : ∃ (b : Fin 64) (c : Fin 128), i = ix2 b c := ⟨i 0, i 1, eq_ix2 i⟩
  rw [MaxSim.score_ix2]
  unfold MaxSim.scoreAt
  rw [val_main_v7_apply, val_main_v5_apply, val_main_v6_apply, val_main_v4_apply, val_main_cst_2_apply, val_main_cst_1_apply,
    val_main_v3_apply, val_main_cst_0_apply]
  rw [Ideal.hostDivf_def, Ideal.hostDivf_def, Ideal.ofBits_def, Ideal.ofBits_def, Ideal.ofBits_def, Ideal.ofBits_zero_f32, zero_add]
  refine congrArg (Ideal.div · (Ideal.ofBits .f32 0x3D4CCCCD#32)) ?_
  refine congrArg (Ideal.div · (Ideal.ofBits .f32 0x42000000#32)) ?_
  refine Finset.sum_congr rfl fun s _ => ?_
  have e : idx_main_v3 (ix2 b c) s = ix3 b c s := funext fun a => Fin.ext (by
    match a with
    | ⟨0, _⟩ => rfl
    | ⟨1, _⟩ => rfl
    | ⟨2, _⟩ => rfl)
  rw [e]
  exact best_apply x0 x1 b c s

variable [Cert.KernelIdeal.Facts]

/-- The reference's result is the loss of its score matrix. -/
theorem loss_eq (x0 : FVec Ideal S64x32x128 .f32) (x1 : FVec Ideal S128x128x128 .f32) :
    val_main_v13 (F := Ideal) x0 x1 = MaxSim.loss (val_main_v7 (F := Ideal) x0 x1) := rfl

end Cert.MaxSim.Ref

end
-- ==== Proof.lean ====
/- The proof of `Cert.Claim` for the late-interaction (MaxSim) contrastive loss.

   Both programs compute, from queries Q [64, 32, 128] and documents D [128, 128, 128],
       score b c = ((Σ_s max_d Σ_h Q(b,s,h) · D(c,d,h)) / 32) / 0.05      (b < 64, c < 128, s < 32, d, h < 128)
   and then the loss: minus the mean over b of the log-softmax of row b of the scores at column 0.

   The kernel program changes the format of Q, exchanges the first two axes of D, and at each of two grid points takes
   32 queries and the whole bank: it flattens query tokens and document tokens to rows, multiplies rows by rows, and takes
   the maximum over the document tokens in four slabs of 32 joined by max; the reference contracts D with Q in the other
   order, reorders the axes and takes one maximum over all 128 document tokens. On the extended reals a change of format
   is the identity, the product commutes, and a maximum over 128 entries is the maximum of the maxima of its four blocks
   of 32 — laws that hold at infinities too, so the precondition is never opened. The score arrays are therefore one
   matrix (Spec.lean: `MaxSim.score`), and both programs apply the same loss to it (`MaxSim.loss`).

   Modules: Spec (the two functions); LibMergedAxes, LibTransposedDot, LibRank3Read, LibLastAxisMax (layout operations,
   products and reductions read at an index); KernelBlock, KernelPoint (the body's stored block, entry by entry);
   KernelArray (the score array after the region); KernelRun (the kernel program's run, with the lines after the region);
   RefValue (the reference's scores and loss). -/
import proofs.«134489_j74878459838967_2_alg».proof.Defs
import proofs.«134489_j74878459838967_2_alg».proof.Proof.Gen.Kernel
import proofs.«134489_j74878459838967_2_alg».proof.Proof.Gen.Kernel.Skeleton
import proofs.«134489_j74878459838967_2_alg».proof.Proof.Gen.Kernel.Launch
import proofs.«134489_j74878459838967_2_alg».proof.Proof.Gen.Kernel.Points
import proofs.«134489_j74878459838967_2_alg».proof.Proof.Gen.Kernel.Frame
import proofs.«134489_j74878459838967_2_alg».proof.Proof.Gen.KernelIdeal
import proofs.«134489_j74878459838967_2_alg».proof.Proof.Gen.KernelIdeal.Skeleton
import proofs.«134489_j74878459838967_2_alg».proof.Proof.Gen.KernelIdeal.Launch
import proofs.«134489_j74878459838967_2_alg».proof.Proof.Gen.KernelIdeal.Points
import proofs.«134489_j74878459838967_2_alg».proof.Proof.Gen.KernelIdeal.Frame
import proofs.«134489_j74878459838967_2_alg».proof.Proof.Gen.ReferenceIdeal
import proofs.«134489_j74878459838967_2_alg».proof.Proof.Gen.Pre_finite_inputs
import proofs.«134489_j74878459838967_2_alg».proof.Proof.Gen.ReferenceIdeal.Run
import proofs.«134489_j74878459838967_2_alg».proof.Proof.Gen.ReferenceIdeal.Read
import proofs.«134489_j74878459838967_2_alg».proof.Proof.KernelRun
import proofs.«134489_j74878459838967_2_alg».proof.Proof.RefValue
import Idealize.ShloMosaic.Adequacy
import Idealize.ShloMosaic.Init

noncomputable section

namespace Cert.Proof

open Idealize.ShloMosaic Idealize.SL.Sem

/-- The word-level kernel program runs and leaves its arguments as they were. -/
theorem frame_k : Cert.frame_Kernel := fun m ρ _ => Cert.Kernel.Gen.frame m ρ

/-- So does the kernel program read on the extended reals. -/
theorem frame_ki : Cert.frame_KernelIdeal := fun m ρ _ => Cert.KernelIdeal.Gen.frame m ρ

/-- The reference is a straight line of host operations none of which writes an argument: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel program is the kernel program's own text: nothing was rewritten. -/
theorem preserves : Cert.preserves_Kernel_KernelIdeal := trivial

/-- Both programs end with the loss of the score matrix of the arguments. -/
theorem algebraic : Cert.algebraic_KernelIdeal_ReferenceIdeal := by
  intro m ρ m' ρ' _ hagree
  refine ⟨fun c => Cert.MaxSim.loss (Cert.MaxSim.score
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.MaxSim.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.MaxSim.Ref.loss_eq, Cert.MaxSim.Ref.scores_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
